-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x2000000 : Shape := ⟨2, ![2, 2000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x2000000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x2000000 : Shape := ⟨2, ![2, 2000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2007040 : Shape := ⟨1, ![2007040]⟩
abbrev S2007040x1 : Shape := ⟨2, ![2007040, 1]⟩
abbrev S2007040x128 : Shape := ⟨2, ![2007040, 128]⟩
abbrev S8192x128 : Shape := ⟨2, ![8192, 128]⟩
abbrev S8192 : Shape := ⟨1, ![8192]⟩
abbrev S1x128 : Shape := ⟨2, ![1, 128]⟩

abbrev nBuf : Space → Nat
  | .hbm => 42
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x2000000, .i32⟩
  | .hbm, ⟨7, _⟩ => ⟨S2000000, .i32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S_, .i32⟩
  | .hbm, ⟨12, _⟩ => ⟨S2007040, .i32⟩
  | .hbm, ⟨13, _⟩ => ⟨S_, .i32⟩
  | .hbm, ⟨14, _⟩ => ⟨S_, .i32⟩
  | .hbm, ⟨15, _⟩ => ⟨S2007040, .i32⟩
  | .hbm, ⟨16, _⟩ => ⟨S100000x128, .bf16⟩
  | .hbm, ⟨17, _⟩ => ⟨S_, .i32⟩
  | .hbm, ⟨18, _⟩ => ⟨S2007040, .i32⟩
  | .hbm, ⟨19, _⟩ => ⟨S2007040, .i1⟩
  | .hbm, ⟨20, _⟩ => ⟨S_, .i32⟩
  | .hbm, ⟨21, _⟩ => ⟨S2007040, .i32⟩
  | .hbm, ⟨22, _⟩ => ⟨S2007040, .i32⟩
  | .hbm, ⟨23, _⟩ => ⟨S2007040, .i32⟩
  | .hbm, ⟨24, _⟩ => ⟨S2007040x1, .i32⟩
  | .hbm, ⟨25, _⟩ => ⟨S2007040x128, .bf16⟩
  | .hbm, ⟨26, _⟩ => ⟨S_, .i32⟩
  | .hbm, ⟨27, _⟩ => ⟨S2007040, .i32⟩
  | .hbm, ⟨28, _⟩ => ⟨S2007040, .i1⟩
  | .hbm, ⟨29, _⟩ => ⟨S_, .i32⟩
  | .hbm, ⟨30, _⟩ => ⟨S2007040, .i32⟩
  | .hbm, ⟨31, _⟩ => ⟨S2007040, .i32⟩
  | .hbm, ⟨32, _⟩ => ⟨S2007040, .i32⟩
  | .hbm, ⟨33, _⟩ => ⟨S2007040x1, .i32⟩
  | .hbm, ⟨34, _⟩ => ⟨S2007040x128, .bf16⟩
  | .hbm, ⟨35, _⟩ => ⟨S2007040x128, .f32⟩
  | .hbm, ⟨36, _⟩ => ⟨S2007040x128, .f32⟩
  | .hbm, ⟨37, _⟩ => ⟨S2007040x128, .f32⟩
  | .hbm, ⟨38, _⟩ => ⟨S2007040x128, .bf16⟩
  | .hbm, ⟨39, _⟩ => ⟨S128x128, .bf16⟩
  | .hbm, ⟨40, _⟩ => ⟨S2007040, .f32⟩
  | .hbm, ⟨41, _⟩ => ⟨S2000000, .f32⟩
  | .local _ .vmem, ⟨0, _⟩ => ⟨S8192x128, .bf16⟩
  | .local _ .vmem, ⟨1, _⟩ => ⟨S8192x128, .bf16⟩
  | .local _ .vmem, ⟨2, _⟩ => ⟨S128x128, .bf16⟩
  | .local _ .vmem, ⟨3, _⟩ => ⟨S128, .f32⟩
  | .local _ .vmem, ⟨4, _⟩ => ⟨S128x1, .f32⟩
  | .local _ .vmem, ⟨5, _⟩ => ⟨S1, .f32⟩
  | .local _ .vmem, ⟨6, _⟩ => ⟨S8192, .f32⟩
  | .local _ .vmem, ⟨7, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c : Ref sig .tc := ⟨.hbm, 10, rfl⟩
abbrev main_call0_call0_v0 : Ref sig .tc := ⟨.hbm, 11, rfl⟩
abbrev main_call0_v4 : Ref sig .tc := ⟨.hbm, 12, rfl⟩
abbrev main_call0_c_0 : Ref sig .tc := ⟨.hbm, 13, rfl⟩
abbrev main_call0_call1_v0 : Ref sig .tc := ⟨.hbm, 14, rfl⟩
abbrev main_call0_v5 : Ref sig .tc := ⟨.hbm, 15, rfl⟩
abbrev main_call0_v6 : Ref sig .tc := ⟨.hbm, 16, rfl⟩
abbrev main_call0_c_1 : Ref sig .tc := ⟨.hbm, 17, rfl⟩
abbrev main_call0_v7 : Ref sig .tc := ⟨.hbm, 18, rfl⟩
abbrev main_call0_v8 : Ref sig .tc := ⟨.hbm, 19, rfl⟩
abbrev main_call0_c_2 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_c_3 : Ref sig .tc := ⟨.hbm, 26, rfl⟩
abbrev main_call0_v14 : Ref sig .tc := ⟨.hbm, 27, rfl⟩
abbrev main_call0_v15 : Ref sig .tc := ⟨.hbm, 28, rfl⟩
abbrev main_call0_c_4 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_v0 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  pads_S2000000_S2007040_070400 : S2000000.Pads (![0] : Fin 1 → Nat) ![7040] ![0] S2007040
  h_S_ : 0 < S_.numel
  bitsLt_bf16_f32 : FTy.bits .bf16 < FTy.bits .f32
  bcast_S_S2007040 : S_.BroadcastsInDim S2007040 (![] : Fin 0 → Fin S2007040.rank)
  bcast_S2007040_S2007040x1_0 : S2007040.BroadcastsInDim S2007040x1 (![0] : Fin 1 → Fin S2007040x1.rank)
  slices_S2007040_S2000000_0 : S2007040.Slices ![0] S2000000
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x1_S128x1_0_0 : ∀ a, (![0, 0] : Fin 2 → Nat) a + S128x1.size a ≤ S128x1.size a
  h_S128x1 : 0 < S128x1.numel
  shapeCasts_S128x1_S128 : S128x1.ShapeCasts S128
  reduces_S8192x128_S8192 : S8192x128.Reduces [1] S8192
  inb_S1_S1_0 : ∀ a, (![0] : Fin 1 → Nat) a + S1.size a ≤ S1.size a
  h_S1 : 0 < S1.numel
  inpos_S1_p0 : ∀ a, (![0] : Fin 1 → Nat) a < S1.size a
  inb_S8192_S8192_0 : ∀ a, (![0] : Fin 1 → Nat) a + S8192.size a ≤ S8192.size a
  h_S8192 : 0 < S8192.numel
  gather_S100000x128_S2007040x1_S2007040x128_1_0_n_n_0_1_1128_wf : GatherDims.WF S100000x128 S2007040x1 S2007040x128 [1] [0] [] [0] [] 1 ![1, 128]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S2007040x128.size a
  hwx0_0 : ∀ i : grid0.Coords, EltTy.bits .bf16 = 32 ∨ (Rect.block (s := S2007040x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S2007040.size a
  hwx0_5 : ∀ i : grid0.Coords, EltTy.bits .f32 = 32 ∨ (Rect.block (s := S2007040) S8192.size (cc0_transform_5 i) (hinb0_5 i)).WholeWords (EltTy.packing .f32)

variable [Facts₀]

def gather_S100000x128_S2007040x1_S2007040x128_1_0_n_n_0_1_1128 : GatherDims S100000x128 S2007040x1 S2007040x128 where
  offsetDims := [1]
  collapsedSliceDims := [0]
  operandBatchingDims := []
  startIndicesBatchingDims := []
  startIndexMap := [0]
  indexVectorDim := 1
  sliceSizes := ![1, 128]
  wf := gather_S100000x128_S2007040x1_S2007040x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_call0_v24) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v25) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v26) S8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x2000000 : Shape := ⟨2, ![2, 2000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x128 : Shape := ⟨2, ![2000000, 128]⟩
abbrev S1x128 : Shape := ⟨2, ![1, 128]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x2000000, .i32⟩
  | .hbm, ⟨7, _⟩ => ⟨S2000000, .i32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x128, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x128, .f32⟩
  | .hbm, ⟨28, _⟩ => ⟨S2000000x128, .f32⟩
  | .hbm, ⟨29, _⟩ => ⟨S2000000x128, .f32⟩
  | .hbm, ⟨30, _⟩ => ⟨S1x128, .f32⟩
  | .hbm, ⟨31, _⟩ => ⟨S2000000x128, .f32⟩
  | .hbm, ⟨32, _⟩ => ⟨S2000000x128, .f32⟩
  | .hbm, ⟨33, _⟩ => ⟨S_, .f32⟩
  | .hbm, ⟨34, _⟩ => ⟨S2000000x128, .f32⟩
  | .hbm, ⟨35, _⟩ => ⟨S2000000x128, .f32⟩
  | .hbm, ⟨36, _⟩ => ⟨S2000000x1, .f32⟩
  | .hbm, ⟨37, _⟩ => ⟨S1x1, .f32⟩
  | .hbm, ⟨38, _⟩ => ⟨S2000000x1, .f32⟩
  | .hbm, ⟨39, _⟩ => ⟨S2000000x1, .f32⟩
  | .hbm, ⟨40, _⟩ => ⟨S2000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000x128 : S_.BroadcastsInDim S2000000x128 (![] : Fin 0 → Fin S2000000x128.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  shapeCasts_S2000000x1_S2000000 : S2000000x1.ShapeCasts S2000000
  gather_S100000x128_S2000000x1_S2000000x128_1_0_n_n_0_1_1128_wf : GatherDims.WF S100000x128 S2000000x1 S2000000x128 [1] [0] [] [0] [] 1 ![1, 128]
  dot_S2000000x128_S128x128_S2000000x128_1_0_0_1_n_n_wf : DotDims.WF S2000000x128 S128x128 S2000000x128 [1] [0] [0] [1] [] []
  dot_S2000000x128_S128x1_S2000000x1_1_0_0_1_n_n_wf : DotDims.WF S2000000x128 S128x1 S2000000x1 [1] [0] [0] [1] [] []

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def dot_S2000000x128_S128x128_S2000000x128_1_0_0_1_n_n : DotDims S2000000x128 S128x128 S2000000x128 where
  lhsContracting := [1]
  rhsContracting := [0]
  lhsNonContracting := [0]
  rhsNonContracting := [1]
  lhsBatch := []
  rhsBatch := []
  wf := dot_S2000000x128_S128x128_S2000000x128_1_0_0_1_n_n_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf

class Facts : Prop extends Facts₀ where

variable [Facts]
-- ==== Proof.EdgeScore.lean ====
/-
  The edge decoder as one function of the argument arrays.

  For an edge `e` with endpoint words `s = ei[0, e]` and `t = ei[1, e]`, the score is a two-layer perceptron on the
  Hadamard product of the two endpoint rows of the node table `z`:

      feat e d  = z[node s, d] · z[node t, d]
      score e   = Σ_k max (Σ_d feat e d · W1[d, k] + b1[k], 0) · W2[k, 0] + b2[0]

  over the extended reals. An endpoint word names a node the way array indexing does: a negative word counts from the
  end of the table (`wrap`), and the result, read signed, is clamped into the table (`node`).
-/
import Idealize.ShloMosaic.Lib.ValueIdx
import Idealize.ShloMosaic.PureOps.Ideal

noncomputable section

open scoped BigOperators

namespace Cert.EdgeScore

open Idealize.ShloMosaic Idealize.ShloMosaic.ValueIdx

/-- A negative endpoint word counts from the end of the 100000-row table. -/
def wrap (v : BitVec 32) : BitVec 32 := Scalar.select (IntOp.cmpi .slt v 0#32) (IntOp.addi v 100000#32) v

/-- The node row an endpoint word names: the wrapped word read signed and clamped into `[0, 99999]`. -/
def node (v : BitVec 32) : Fin 100000 := ⟨min (wrap v).toInt.toNat (100000 - 1), by omega⟩

/-- The two-layer perceptron on one feature row `x`: `Σ_k max (Σ_d x d · W1[d, k] + b1[k], 0) · W2[k, 0] + b2[0]`. -/
def mlp (x : Fin 128 → EReal) (W1 : (⟨2, ![128, 128]⟩ : Shape).Idx → EReal) (b1 : (⟨1, ![128]⟩ : Shape).Idx → EReal)
    (W2 : (⟨2, ![128, 1]⟩ : Shape).Idx → EReal) (b2 : (⟨1, ![1]⟩ : Shape).Idx → EReal) : EReal :=
  (∑ k : Fin 128, max ((∑ d : Fin 128, x d * W1 (ix2 d k)) + b1 (ix1 k)) 0 * W2 (ix2 k (0 : Fin 1))) + b2 (ix1 (0 : Fin 1))

/-- The feature row of edge `e`: the Hadamard product of its two endpoint rows of `z`. -/
def feat (z : (⟨2, ![100000, 128]⟩ : Shape).Idx → EReal) (ei : (⟨2, ![2, 2000000]⟩ : Shape).Idx → BitVec 32)
    (e : Fin 2000000) (d : Fin 128) : EReal :=
  z (ix2 (node (ei (ix2 (0 : Fin 2) e))) d) * z (ix2 (node (ei (ix2 (1 : Fin 2) e))) d)

/-- The score of every edge. -/
def score (z : (⟨2, ![100000, 128]⟩ : Shape).Idx → EReal) (ei : (⟨2, ![2, 2000000]⟩ : Shape).Idx → BitVec 32)
    (W1 : (⟨2, ![128, 128]⟩ : Shape).Idx → EReal) (b1 : (⟨1, ![128]⟩ : Shape).Idx → EReal)
    (W2 : (⟨2, ![128, 1]⟩ : Shape).Idx → EReal) (b2 : (⟨1, ![1]⟩ : Shape).Idx → EReal) :
    (⟨1, ![2000000]⟩ : Shape).Idx → EReal :=
  fun i => mlp (feat z ei (i 0)) W1 b1 W2 b2

end Cert.EdgeScore

end
-- ==== Proof.LibUnitColumn.lean ====
/-
  A one-column array read as a vector, and the one element of a one-element vector.

  An `[a, 1]` array cast to `[a]` reads, at `i`, the operand at `(i, 0)`; the element a `vector.extract` takes at
  position `0` of a `[1]` vector is the vector at its one index.
-/
import Idealize.ShloMosaic.Lib.ValueIdx
import Idealize.ShloMosaic.Lib.Pipeline.Value

noncomputable section

namespace Cert.UnitColumn

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The element at position `0` of a one-element vector is the vector at its one index. -/
theorem extractAt_one (x : (⟨1, ![1]⟩ : Shape).Idx → α) (h : ∀ a, (![0] : Fin 1 → Nat) a < (⟨1, ![1]⟩ : Shape).size a) :
    extractAt ![0] x h = x (ix1 (0 : Fin 1)) :=
  congrArg x (funext fun a => by match a with | ⟨0, _⟩ => rfl)

end Cert.UnitColumn

end
-- ==== Proof.TileRow.lean ====
/-
  One row of the kernel body's result.

  The body computes, from its five loaded blocks — a tile `x0` of 8192 feature rows, the weights `x1`, `x3` and
  the biases `x2`, `x4` —, a vector of 8192 scores. Row `r` of it is the perceptron `EdgeScore.mlp` on row `r` of
  the tile: the matrix product into a zero accumulator is the plain sum over the contracted axis, the row-broadcast
  bias is `b1[k]`, the lane reduction of the products with the broadcast second-layer column is the sum over `k`,
  and the scalar taken out of the one-element bias is `b2[0]`.
-/
import proofs.«179441_j62191126446520_2_alg».proof.Proof.Gen.KernelIdeal.Skeleton
import proofs.«179441_j62191126446520_2_alg».proof.Proof.EdgeScore
import proofs.«179441_j62191126446520_2_alg».proof.Proof.LibUnitColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The first layer's matrix product at an index -/

theorem lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The product of the tile with the first-layer weights, accumulated into zero, at `(r, k)`: the sum over the 128
    feature columns `d` of the tile at `(r, d)` times the weight at `(d, k)`. -/
theorem layer1_apply (x0 : FVec Ideal S8192x128 .bf16) (x1 : FVec Ideal S128x128 .bf16) (r : Fin 8192) (k : Fin 128) :
    matmul dot_S8192x128_S128x128_S8192x128_1_0_0_1_n_n none x0 x1 (constant S8192x128 .f32 0x00000000#32) (ix2 r k)
      = ∑ d : Fin 128, x0 (ix2 r d) * x1 (ix2 d k) := by
  simp only [matmul]
  rw [Ideal.matmul_constant_zero_apply,
    ← Equiv.sum_comp (contrEquiv1 dot_S8192x128_S128x128_S8192x128_1_0_0_1_n_n 128 rfl rfl).symm]
  refine Finset.sum_congr rfl fun d _ => ?_
  have hk := contrEquiv1_symm_val dot_S8192x128_S128x128_S8192x128_1_0_0_1_n_n 128 rfl rfl d
  have el : dot_S8192x128_S128x128_S8192x128_1_0_0_1_n_n.lhsIdx (ix2 r k)
      ((contrEquiv1 dot_S8192x128_S128x128_S8192x128_1_0_0_1_n_n 128 rfl rfl).symm d) = ix2 r d :=
    funext fun a => Fin.ext (by
      match a with
      | ⟨0, _⟩ => exact lhs_0 _ _
      | ⟨1, _⟩ => exact (lhs_1 _ _).trans hk)
  have er : dot_S8192x128_S128x128_S8192x128_1_0_0_1_n_n.rhsIdx (ix2 r k)
      ((contrEquiv1 dot_S8192x128_S128x128_S8192x128_1_0_0_1_n_n 128 rfl rfl).symm d) = ix2 d k :=
    funext fun a => Fin.ext (by
      match a with
      | ⟨0, _⟩ => exact (rhs_0 _ _).trans hk
      | ⟨1, _⟩ => exact rhs_1 _ _)
  rw [el, er]

/-! ## The lane reduction at an index -/

/-- The sum over the lanes of an `[8192, 128]` vector, at row `r`: the sum over `k` of the vector at `(r, k)`. -/
theorem laneSum_apply (v : FVec Ideal S8192x128 .f32) (h : S8192x128.Reduces [1] S8192) (hφ : FKind.Formats .f32)
    (hacc : (0x00000000#32 : BitVec 32) = 0x00000000#32) (r : Fin 8192) :
    multiReduction .add [1] S8192 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v ?_
  funext a
  refine Fin.ext ?_
  match a with
  | ⟨0, _⟩ => rfl
  | ⟨1, _⟩ => rfl

/-! ## The body's result at a row -/

/-- Row `r` of the body's result is the perceptron on row `r` of the tile. -/
theorem row_apply (x0 : FVec Ideal S8192x128 .bf16) (x1 : FVec Ideal S128x128 .bf16) (x2 : FVec Ideal S128 .f32)
    (x3 : FVec Ideal S128x1 .f32) (x4 : FVec Ideal S1 .f32) (r : Fin 8192) :
    k0_pay1 (F := Ideal) x0 x1 x2 x3 x4 (ix1 r) = EdgeScore.mlp (fun d => x0 (ix2 r d)) x1 x2 x3 x4 := by
  unfold k0_pay1 EdgeScore.mlp
  dsimp only
  rw [addf_apply, laneSum_apply, broadcast_apply, UnitColumn.extractAt_one]
  refine congrArg (· + x4 (ix1 (0 : Fin 1))) (Finset.sum_congr rfl fun k _ => ?_)
  rw [mulf_apply, maximumf_apply, addf_apply, broadcast_apply, shapeCast_self, shapeCast_self, layer1_apply,
    broadcastTo_1b_ab_apply, broadcastTo_1b_ab_apply, shapeCast_a_1a_apply, shapeCast_a_1a_apply,
    UnitColumn.shapeCast_a1_a_apply]
  show max _ (Ideal.ofBits .f32 0x00000000#32) * _ = _
  rw [Ideal.ofBits_zero_f32]

end Cert.KernelIdeal.Tile

end
-- ==== Proof.ScoreArray.lean ====
/-
  The padded score array after the run.

  The grid has 245 points; point `t` reads rows `8192·t … 8192·t + 8191` of the padded feature array (2007040
  rows) and the whole of the four parameter arrays, and writes rows `8192·t … 8192·t + 8191` of the padded score
  array. What it writes is a block of ONE function of the arrays as the region finds them: row `e` of the result is
  the perceptron on row `e` of the feature array. The 245 blocks tile the 2007040 rows, so the array ends holding
  that function.
-/
import proofs.«179441_j62191126446520_2_alg».proof.Proof.Gen.KernelIdeal.Frame
import proofs.«179441_j62191126446520_2_alg».proof.Proof.TileRow
import Idealize.ShloMosaic.Lib.Pipeline.Value

noncomputable section

namespace Cert.KernelIdeal.ScoreArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The padded score array as one function of the arrays the region finds: row `e` is the perceptron on row `e` of
    the feature array. -/
def padded (c : Dev nD) : S2007040.Idx → EReal := fun i =>
  EdgeScore.mlp (fun d => V m c main_call0_v24 (ix2 (i 0) d)) (V m c main_call0_v25) (V m c main_arg3)
    (V m c main_arg4) (V m c main_arg5)

/-- The printed index maps, decided over the grid: the feature window and the score window are at block `t` of
    their row axis at point `t`; the parameter windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = t.val :=
  (by decide +kernel : ∀ t : Fin grid0.N, _)

/-- Row `r` of the feature window's block at point `t` is row `8192·t + r` of the feature array. -/
theorem feat_blk (c : Dev nD) (t : Fin cfg0.N) (r : Fin 8192) (d : Fin 128) (e : Fin 2007040) (he : e.val = t.val * 8192 + r.val) :
    iblk m c 0 t (ix2 r d) = V m c main_call0_v24 (ix2 e d) := by
  obtain ⟨e0, e1, -⟩ := idx_facts t
  show V m c main_call0_v24 (((cfg0.win 0).blk t).view.emb (ix2 r d)) = V m c main_call0_v24 (ix2 e d)
  refine congrArg (V m c main_call0_v24) ?_
  funext a; apply Fin.ext
  match a with
  | ⟨0, _⟩ => show win0_0.index t (0 : Fin 2) * 8192 + 1 * r.val = e.val; omega
  | ⟨1, _⟩ => show win0_0.index t (1 : Fin 2) * 128 + 1 * d.val = d.val; omega

/-- The first-layer weights' block at any point is the whole array. -/
theorem w1_blk (c : Dev nD) (t : Fin cfg0.N) : iblk m c 1 t = V m c main_call0_v25 := by
  obtain ⟨-, -, e0, e1, -⟩ := idx_facts t
  funext y
  show V m c main_call0_v25 (((cfg0.win 1).blk t).view.emb y) = V m c main_call0_v25 y
  refine congrArg (V m c main_call0_v25) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first-layer bias's block at any point is the whole array. -/
theorem b1_blk (c : Dev nD) (t : Fin cfg0.N) : iblk m c 2 t = V m c main_arg3 := by
  obtain ⟨-, -, -, -, e0, -⟩ := idx_facts t
  funext y
  show V m c main_arg3 (((cfg0.win 2).blk t).view.emb y) = V m c main_arg3 y
  refine congrArg (V m c main_arg3) ?_
  funext a; apply Fin.ext
  match a with
  | ⟨0, _⟩ => show win0_2.index t (0 : Fin 1) * 128 + 1 * (y 0).val = (y 0).val; omega

/-- The second-layer column's block at any point is the whole array. -/
theorem w2_blk (c : Dev nD) (t : Fin cfg0.N) : iblk m c 3 t = V m c main_arg4 := by
  obtain ⟨-, -, -, -, -, e0, e1, -⟩ := idx_facts t
  funext y
  show V m c main_arg4 (((cfg0.win 3).blk t).view.emb y) = V m c main_arg4 y
  refine congrArg (V m c main_arg4) ?_
  funext a; apply Fin.ext
  match a with
  | ⟨0, _⟩ => show win0_3.index t (0 : Fin 2) * 128 + 1 * (y 0).val = (y 0).val; omega
  | ⟨1, _⟩ => show win0_3.index t (1 : Fin 2) * 1 + 1 * (y 1).val = (y 1).val; omega

/-- The second-layer bias's block at any point is the whole array. -/
theorem b2_blk (c : Dev nD) (t : Fin cfg0.N) : iblk m c 4 t = V m c main_arg5 := by
  obtain ⟨-, -, -, -, -, -, -, e0, -⟩ := idx_facts t
  funext y
  show V m c main_arg5 (((cfg0.win 4).blk t).view.emb y) = V m c main_arg5 y
  refine congrArg (V m c main_arg5) ?_
  funext a; apply Fin.ext
  match a with
  | ⟨0, _⟩ => show win0_4.index t (0 : Fin 1) * 1 + 1 * (y 0).val = (y 0).val; omega

/-- WHAT POINT `t` WRITES BACK is block `t` of `padded`. -/
theorem flushed_eq (c : Dev nD) (t : Fin cfg0.N) :
    (dats m 0 c).flushed 5 t = ((cfg0.win 5).blk t).view.read (Elt Ideal) (padded m c) := by
  show (cfg0.win 5).cut (grid0.coords t) ((dats m 0 c).after 5 t) = _
  rw [after0_5]
  unfold out0_5
  rw [View.canon_unit_zero hz1]
  simp only [View.ld_unit_zero (S := S8192x128) hz2, View.ld_unit_zero (S := S128x128) hz2,
    View.ld_unit_zero (S := S128) hz1, View.ld_unit_zero (S := S128x1) hz2, View.ld_unit_zero (S := S1) hz1]
  rw [w1_blk, b1_blk, w2_blk, b2_blk]
  obtain ⟨-, -, -, -, -, -, -, -, e5⟩ := idx_facts t
  funext j
  obtain ⟨r, rfl⟩ : ∃ r : Fin 8192, j = ix1 r := ⟨j 0, eq_ix1 j⟩
  have ht : t.val < 245 := Nat.lt_of_lt_of_eq t.isLt N_0
  show k0_pay1 (F := Ideal) (iblk m c 0 t) (V m c main_call0_v25) (V m c main_arg3) (V m c main_arg4) (V m c main_arg5) (ix1 r)
    = padded m c (((cfg0.win 5).blk t).view.emb (ix1 r))
  refine (Tile.row_apply (iblk m c 0 t) (V m c main_call0_v25) (V m c main_arg3) (V m c main_arg4) (V m c main_arg5) r).trans ?_
  unfold padded
  refine congrArg (fun x => EdgeScore.mlp x (V m c main_call0_v25) (V m c main_arg3) (V m c main_arg4) (V m c main_arg5)) ?_
  funext d
  refine feat_blk m c t r d _ ?_
  show win0_5.index t (0 : Fin 1) * 8192 + 1 * r.val = t.val * 8192 + r.val
  omega

/-- An index of the padded array is in point `t`'s block iff its row is in `[8192·t, 8192·t + 8192)`. -/
theorem mem_blk (t : Fin cfg0.N) (i : S2007040.Idx) :
    i ∈ ((cfg0.win 5).blk t).view.set ↔ ∀ a : Fin 1, win0_5.index t a * S8192.size a ≤ (i a).val ∧ (i a).val < win0_5.index t a * S8192.size a + S8192.size a := by
  show i ∈ ((View.whole main_call0_v26).slice (win0_5.rect t)).set ↔ _
  rw [View.set_slice_whole, Rect.mem_set_unit]
  exact Iff.rfl

/-- The 245 blocks tile the padded array: row `e` is in the block of point `e / 8192`. -/
theorem cover (i : S2007040.Idx) : ∃ t : Fin cfg0.N, (cfg0.win 5).flush t = true ∧ i ∈ ((cfg0.win 5).blk t).view.set := by
  have hi : (i 0).val < 2007040 := (i 0).isLt
  have hN : cfg0.N = 245 := N_0
  refine ⟨⟨(i 0).val / 8192, by rw [hN]; omega⟩, flush0_5 _, ?_⟩
  rw [mem_blk]
  obtain ⟨-, -, -, -, -, -, -, -, e5⟩ := idx_facts ⟨(i 0).val / 8192, by rw [hN]; omega⟩
  intro a
  match a with
  | ⟨0, _⟩ =>
    show win0_5.index _ (0 : Fin 1) * 8192 ≤ (i 0).val ∧ (i 0).val < win0_5.index _ (0 : Fin 1) * 8192 + 8192
    rw [e5]
    show (i 0).val / 8192 * 8192 ≤ (i 0).val ∧ (i 0).val < (i 0).val / 8192 * 8192 + 8192
    omega

/-- THE PADDED SCORE ARRAY after the run is `padded`. -/
theorem final (c : Dev nD) : (dats m 0 c).arrAt 5 cfg0.N = padded m c :=
  (dats m 0 c).arrAt_eq_of_cover 5 (padded m c) (fun t _ => flushed_eq m c t) cover

end Cert.KernelIdeal.ScoreArray

end
-- ==== Proof.LibRowGatherScatter.lean ====
/-
  Row gather and row scatter-add, read at an index.

  What `x[idx]` of a matrix `x : [N, C]` at an integer vector `idx : [E]` (carried as `[E, 1]`) lowers to is a
  `stablehlo.gather` of whole rows: result element `(e, k)` is `x` at row `idx[e]` (read signed, clamped into
  `[0, N − 1]`) and column `k`. What a segment sum of rows `upd : [E, C]` into `[N, C]` lowers to is a
  `stablehlo.scatter` with an `add` body: operand element `(n, k)` receives every `upd (e, k)` whose index `idx[e]`,
  read signed and not clamped, is exactly `n`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand `[N, C]`, start indices `[E, 1]`, result `[E, C]`; offset axis
    `1`, collapsed operand axis `0`, the start index naming operand axis `0`, slices of one whole row. Their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge `e`: the start index read signed and clamped into `[0, N − 1]`. -/
def gatherRow {N E w : Nat} (hN : 0 < N) (idx : IVec ⟨2, ![E, 1]⟩ w) (e : Fin E) : Fin N :=
  ⟨min (idx (ix2 e 0)).toInt.toNat (N - 1), by omega⟩

/-- The row gather at `(e, k)` is the operand at row `gatherRow e` (the clamped start index) and column `k`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand `[N, C]`, scatter indices `[E, 1]`, updates `[E, C]`; update
    window axis `1`, inserted operand axis `0`, the scatter index naming operand axis `0`. Their conditions `wf` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update `(e, k)` starts at the scatter index `idx[e]`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is `0`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update `(e, k)` is `k`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update `(e, k)` lands on operand element `(n, k')` exactly when the columns agree and the scatter index `idx[e]`,
    read signed, is the row `n`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT `(n, k)`: the operand element plus the sum of the update elements `upd (e, k)` over the
    edges `e` whose scatter index `idx[e]`, read signed and not clamped, is the row `n`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on `(n, k)` are the `(e, k)` with `idx[e] = n`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.HostPrefix.lean ====
/-
  The feature array the kernel's host code builds, read at an index.

  Before the launch the host code takes the two rows of endpoint words, pads each with 7040 zero words to 2007040
  entries, wraps a negative word by adding 100000, gathers the named rows of the node table (the gather clamps the
  word into the table) and multiplies the two gathered arrays entry by entry. The changes of float format on the way
  are the identity on the extended reals. Row `e` of the result, for an edge `e` below 2000000 — where the padded
  words are the argument's own —, is `EdgeScore.feat` at `e`: the Hadamard product of the edge's two endpoint rows.
-/
import proofs.«179441_j62191126446520_2_alg».proof.Proof.Gen.KernelIdeal
import proofs.«179441_j62191126446520_2_alg».proof.Proof.EdgeScore
import proofs.«179441_j62191126446520_2_alg».proof.Proof.LibRowGatherScatter
import Idealize.ShloMosaic.Lib.ValueIdx
import Idealize.ShloMosaic.Lib.Pipeline.Value

noncomputable section

namespace Cert.KernelIdeal.HostPrefix

open Cert.KernelIdeal Cert.KernelIdeal.Gen Idealize.ShloMosaic Idealize.ShloMosaic.ValueIdx

/-! ## The host operations, stage by stage -/

/-- Row 0 of the endpoint words (the source endpoints), as a vector of 2000000 words. -/
def sources (ei : IVec S2x2000000 32) : IVec S2000000 32 :=
  shapeCast S2000000 (extractStridedSlice S1x2000000 ![0, 0] ei slices_S2x2000000_S1x2000000_0_0) shapeCasts_S1x2000000_S2000000

/-- Row 1 of the endpoint words (the target endpoints). -/
def targets (ei : IVec S2x2000000 32) : IVec S2000000 32 :=
  shapeCast S2000000 (extractStridedSlice S1x2000000 ![1, 0] ei slices_S2x2000000_S1x2000000_1_0) shapeCasts_S1x2000000_S2000000

/-- A vector of endpoint words padded with 7040 zero words. -/
def padded (v : IVec S2000000 32) : IVec S2007040 32 :=
  pad S2007040 ![0] ![7040] ![0] v (id (constantI S_ 32 0#32)) pads_S2000000_S2007040_070400 h_S_

/-- The padded words with each negative one counted from the end of the table, as a one-column array of start
    indices. -/
def wrapped (p : IVec S2007040 32) : IVec S2007040x1 32 :=
  broadcastInDim S2007040x1 ![0] bcast_S2007040_S2007040x1_0
    (select (cmpi .slt p (broadcastInDim S2007040 ![] bcast_S_S2007040 (constantI S_ 32 0#32)))
      (addi p (broadcastInDim S2007040 ![] bcast_S_S2007040 (constantI S_ 32 100000#32))) p)

/-- The rows of the node table the start indices name. -/
def rows (z : FVec Ideal S100000x128 .f32) (i : IVec S2007040x1 32) : FVec Ideal S2007040x128 .f32 :=
  extf .f32 (Host.gather gather_S100000x128_S2007040x1_S2007040x128_1_0_n_n_0_1_1128 (truncf .bf16 z bitsLt_bf16_f32) i)
    bitsLt_bf16_f32

/-- The feature array: the entrywise product of the gathered source rows and the gathered target rows. -/
def feats (z : FVec Ideal S100000x128 .f32) (ei : IVec S2x2000000 32) : FVec Ideal S2007040x128 .bf16 :=
  truncf .bf16 (mulf (rows z (wrapped (padded (sources ei)))) (rows z (wrapped (padded (targets ei))))) bitsLt_bf16_f32

/-! ## Each stage at an index -/

theorem sources_apply (ei : IVec S2x2000000 32) (e : Fin 2000000) : sources ei (ix1 e) = ei (ix2 (0 : Fin 2) e) := by
  unfold sources
  refine (shapeCast_apply _ shapeCasts_S1x2000000_S2000000 (ix1 e) (ix2 (0 : Fin 1) e) ?_).trans ?_
  · rw [Shape.rowMajor_val_two, Shape.rowMajor_val_one]
    show 0 * 2000000 + e.val = e.val
    omega
  · exact extractStridedSlice_apply ![0, 0] ei slices_S2x2000000_S1x2000000_0_0 (ix2 (0 : Fin 1) e) (ix2 (0 : Fin 2) e)
      (fun a => match a with
        | ⟨0, _⟩ => by show 0 = 0 + 0; rfl
        | ⟨1, _⟩ => by show e.val = 0 + e.val; omega)

theorem targets_apply (ei : IVec S2x2000000 32) (e : Fin 2000000) : targets ei (ix1 e) = ei (ix2 (1 : Fin 2) e) := by
  unfold targets
  refine (shapeCast_apply _ shapeCasts_S1x2000000_S2000000 (ix1 e) (ix2 (0 : Fin 1) e) ?_).trans ?_
  · rw [Shape.rowMajor_val_two, Shape.rowMajor_val_one]
    show 0 * 2000000 + e.val = e.val
    omega
  · exact extractStridedSlice_apply ![1, 0] ei slices_S2x2000000_S1x2000000_1_0 (ix2 (0 : Fin 1) e) (ix2 (1 : Fin 2) e)
      (fun a => match a with
        | ⟨0, _⟩ => by show 1 = 1 + 0; rfl
        | ⟨1, _⟩ => by show e.val = 0 + e.val; omega)

/-- Below the 2000000 argument words the padded vector is the vector. -/
theorem padded_apply (v : IVec S2000000 32) (e' : Fin 2007040) (e : Fin 2000000) (he : e'.val = e.val) :
    padded v (ix1 e') = v (ix1 e) := by
  have hlt : e.val < 2000000 := e.isLt
  have hin : ∀ a : Fin S2000000.rank, (![0] : Fin 1 → Nat) a ≤ ((ix1 e' : S2007040.Idx) (a.cast pads_S2000000_S2007040_070400.1)).val
      ∧ (((ix1 e' : S2007040.Idx) (a.cast pads_S2000000_S2007040_070400.1)).val - (![0] : Fin 1 → Nat) a) % ((![0] : Fin 1 → Nat) a + 1) = 0
      ∧ (((ix1 e' : S2007040.Idx) (a.cast pads_S2000000_S2007040_070400.1)).val - (![0] : Fin 1 → Nat) a) / ((![0] : Fin 1 → Nat) a + 1) < S2000000.size a := by
    intro a
    match a with
    | ⟨0, _⟩ =>
      refine ⟨Nat.zero_le _, ?_, ?_⟩
      · show (e'.val - 0) % 1 = 0
        omega
      · show (e'.val - 0) / 1 < 2000000
        omega
  unfold padded pad
  rw [dif_pos hin]
  refine congrArg v (funext fun a => Fin.ext ?_)
  match a with
  | ⟨0, _⟩ =>
    show (e'.val - 0) / 1 = e.val
    omega

/-- The start index of row `e'` is the padded word there, wrapped. -/
theorem wrapped_apply (p : IVec S2007040 32) (e' : Fin 2007040) :
    wrapped p (ix2 e' (0 : Fin 1)) = EdgeScore.wrap (p (ix1 e')) := by
  unfold wrapped
  refine (broadcastInDim_apply _ bcast_S2007040_S2007040x1_0 _ (ix2 e' (0 : Fin 1)) (ix1 e') (fun a => match a with
    | ⟨0, _⟩ => by show e'.val = if (2007040 : Nat) = 1 then 0 else e'.val; rw [if_neg (by decide)])).trans ?_
  rfl

/-- The gathered row at `(e', d)` is the node table at the node the start index names, column `d`. -/
theorem rows_apply (z : FVec Ideal S100000x128 .f32) (p : IVec S2007040 32) (e' : Fin 2007040) (d : Fin 128) :
    rows z (wrapped p) (ix2 e' d) = z (ix2 (EdgeScore.node (p (ix1 e'))) d) := by
  unfold rows
  rw [extf_apply]
  refine (RowOps.rowGather_apply (N := 100000) (E := 2007040) (C := 128) (by decide)
    gather_S100000x128_S2007040x1_S2007040x128_1_0_n_n_0_1_1128_wf (truncf .bf16 z bitsLt_bf16_f32) (wrapped p) e' d).trans ?_
  rw [truncf_apply]
  refine congrArg (fun n => z (ix2 n d)) (Fin.ext ?_)
  show min (wrapped p (ix2 e' (0 : Fin 1))).toInt.toNat (100000 - 1) = min (EdgeScore.wrap (p (ix1 e'))).toInt.toNat (100000 - 1)
  rw [wrapped_apply]

/-- ROW `e` OF THE FEATURE ARRAY, for an edge below 2000000, is the Hadamard product of the edge's endpoint rows. -/
theorem feats_apply (z : FVec Ideal S100000x128 .f32) (ei : IVec S2x2000000 32) (e' : Fin 2007040) (e : Fin 2000000)
    (he : e'.val = e.val) (d : Fin 128) : feats z ei (ix2 e' d) = EdgeScore.feat z ei e d := by
  unfold feats EdgeScore.feat
  rw [truncf_apply, mulf_apply, rows_apply, rows_apply, padded_apply _ e' e he, padded_apply _ e' e he, sources_apply,
    targets_apply]

end Cert.KernelIdeal.HostPrefix

end
-- ==== Proof.KernelRun.lean ====
/-
  The kernel program's run, read: its result is the score of every edge.

  The arrays the region finds are the host code's: the feature array is `HostPrefix.feats` of the node table and the
  endpoint words, the first-layer weights are the argument's (the change of float format is the identity), the other
  three parameter arrays are the arguments themselves. After the region the padded score array is
  `ScoreArray.padded` of them, and the one host operation after the region keeps its first 2000000 rows. For an edge
  `e` below 2000000 the feature row is the Hadamard product of the edge's endpoint rows, so the kept rows are
  `EdgeScore.score`.
-/
import proofs.«179441_j62191126446520_2_alg».proof.Proof.Gen.KernelIdeal.Frame
import proofs.«179441_j62191126446520_2_alg».proof.Proof.ScoreArray
import proofs.«179441_j62191126446520_2_alg».proof.Proof.HostPrefix
import Idealize.ShloMosaic.Lib.StableHlo.Run

noncomputable section

namespace Cert.KernelIdeal.KRun

open Cert.KernelIdeal Cert.KernelIdeal.Gen Idealize.ShloMosaic Idealize.ShloMosaic.TcCoe Idealize.SL.Sem
open Idealize.ShloMosaic.StableHlo
open Idealize.ShloMosaic.ValueIdx

variable (m : (ℓ : Loc nD τ sig) → Buf (Elt Ideal) ℓ) (ρ : Dev nD → PrngReg)

/-- The feature array as the region finds it: the host operations before the region, composed. -/
theorem feats_entry (c : Dev nD) :
    (V m c main_call0_v24 : S2007040x128.Idx → EReal)
      = HostPrefix.feats (m ((c : Thread nD τ).loc main_arg0)) (m ((c : Thread nD τ).loc main_arg1)) := by
  show StableHlo.after hostOps0 (fun b => m (c, b)) (Proc.devRef .tc main_call0_v24) = _
  after_results_simp
  rfl

/-- The first-layer weights as the region finds them: the argument, its float format changed. -/
theorem w1_entry (c : Dev nD) :
    (V m c main_call0_v25 : S128x128.Idx → EReal) = m ((c : Thread nD τ).loc main_arg2) := by
  show StableHlo.after hostOps0 (fun b => m (c, b)) (Proc.devRef .tc main_call0_v25) = _
  after_results_simp
  rfl

/-- THE RESULT: the first 2000000 rows of the padded score array are the scores of the edges. -/
theorem tail_result (c : Dev nD) :
    Pipeline.afterTail₀ cfgs (dats m) 0 (V0 m) [hostOps1] c main_v0
      = EdgeScore.score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v0) = _
  after_results
  show extractStridedSlice S2000000 ![0]
      (Pipeline.withArrays spec0 c (V0 m c) (fun w => (dats m 0 c).arrAt w cfg0.N) (Proc.devRef .tc (Pipeline.arrRef spec0 5)))
      slices_S2007040_S2000000_0 = _
  rw [Pipeline.withArrays_arr spec0 launch0.win.arr_inj c _ _ 5, ScoreArray.final]
  funext i
  obtain ⟨e, rfl⟩ : ∃ e : Fin 2000000, i = ix1 e := ⟨i 0, eq_ix1 i⟩
  have he : e.val < 2000000 := e.isLt
  refine (extractStridedSlice_apply ![0] (ScoreArray.padded m c) slices_S2007040_S2000000_0 (ix1 e)
    (ix1 (⟨e.val, by omega⟩ : Fin 2007040)) (fun a => match a with
      | ⟨0, _⟩ => by show e.val = 0 + e.val; omega)).trans ?_
  show EdgeScore.mlp (fun d => V m c main_call0_v24 (ix2 (⟨e.val, by omega⟩ : Fin 2007040) d)) (V m c main_call0_v25)
      (V m c main_arg3) (V m c main_arg4) (V m c main_arg5)
    = EdgeScore.mlp (EdgeScore.feat (m ((c : Thread nD τ).loc main_arg0)) (m ((c : Thread nD τ).loc main_arg1)) e)
      (m ((c : Thread nD τ).loc main_arg2)) (m ((c : Thread nD τ).loc main_arg3)) (m ((c : Thread nD τ).loc main_arg4))
      (m ((c : Thread nD τ).loc main_arg5))
  rw [w1_entry, V_main_arg3, V_main_arg4, V_main_arg5, feats_entry]
  refine congrArg (fun x => EdgeScore.mlp x (m ((c : Thread nD τ).loc main_arg2)) (m ((c : Thread nD τ).loc main_arg3))
    (m ((c : Thread nD τ).loc main_arg4)) (m ((c : Thread nD τ).loc main_arg5))) (funext fun d => ?_)
  exact HostPrefix.feats_apply _ _ ⟨e.val, by omega⟩ e rfl d

/-- THE RUN: every weakly fair execution of the kernel program terminates with the result at the scores of the
    edges and the arguments unchanged. -/
theorem run : θ_run defs (onTc (τ := τ) (main (F := Ideal))) ⟨m, fun _ => 0, ρ⟩ fun r => ∀ c : Dev nD,
      r.2.mem ((c.tc : Thread nD τ).loc main_v0)
        = EdgeScore.score (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v0 (Pipeline.mem_restRefs_of main_v0 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.KRun

end
-- ==== Proof.RefScore.lean ====
/-
  The reference computes the edge score.

  The reference gathers the two endpoint rows of the node table for each of the 2000000 edges (a negative endpoint
  word wrapped, the gather clamping), multiplies them entry by entry, and applies the two layers as matrix products
  on the host. Read at edge `e`, stage by stage, its result is `EdgeScore.score` at `e`.
-/
import proofs.«179441_j62191126446520_2_alg».proof.Proof.Gen.ReferenceIdeal.Read
import proofs.«179441_j62191126446520_2_alg».proof.Proof.EdgeScore
import proofs.«179441_j62191126446520_2_alg».proof.Proof.LibRowGatherScatter

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The two gathers -/

/-- The source gather's start index for edge `e` is the wrapped source word. -/
theorem start_source (x1 : IVec S2x2000000 32) (e : Fin 2000000) :
    val_main_v9 (F := Ideal) x1 (ix2 e (0 : Fin 1)) = EdgeScore.wrap (x1 (ix2 (0 : Fin 2) e)) := by
  have he : e.val < 2000000 := e.isLt
  have h : idx_main_v0 (idx_main_v1 (idx_main_v9 (ix2 e (0 : Fin 1)))) = ix2 (0 : Fin 2) e :=
    funext fun a => Fin.ext (by
      match a with
      | ⟨0, _⟩ => rfl
      | ⟨1, _⟩ => show e.val % 2000000 = e.val; omega)
  rw [val_main_v9_apply, val_main_v8_apply, val_main_v5_apply, val_main_v7_apply, val_main_v1_apply, val_main_v0_apply,
    val_main_v4_apply, val_main_v6_apply, val_main_c_apply, val_main_c_0_apply, h]
  rfl

/-- The target gather's start index for edge `e` is the wrapped target word. -/
theorem start_target (x1 : IVec S2x2000000 32) (e : Fin 2000000) :
    val_main_v16 (F := Ideal) x1 (ix2 e (0 : Fin 1)) = EdgeScore.wrap (x1 (ix2 (1 : Fin 2) e)) := by
  have he : e.val < 2000000 := e.isLt
  have h : idx_main_v2 (idx_main_v3 (idx_main_v16 (ix2 e (0 : Fin 1)))) = ix2 (1 : Fin 2) e :=
    funext fun a => Fin.ext (by
      match a with
      | ⟨0, _⟩ => rfl
      | ⟨1, _⟩ => show e.val % 2000000 = e.val; omega)
  rw [val_main_v16_apply, val_main_v15_apply, val_main_v12_apply, val_main_v14_apply, val_main_v3_apply, val_main_v2_apply,
    val_main_v11_apply, val_main_v13_apply, val_main_c_1_apply, val_main_c_2_apply, h]
  rfl

/-- The gathered source row of edge `e`. -/
theorem gathered_source (x0 : FVec Ideal S100000x128 .f32) (x1 : IVec S2x2000000 32) (e : Fin 2000000) (d : Fin 128) :
    val_main_v10 (F := Ideal) x0 x1 (ix2 e d) = x0 (ix2 (EdgeScore.node (x1 (ix2 (0 : Fin 2) e))) d) := by
  unfold val_main_v10
  refine (RowOps.rowGather_apply (N := 100000) (E := 2000000) (C := 128) (by decide)
    gather_S100000x128_S2000000x1_S2000000x128_1_0_n_n_0_1_1128_wf x0 (val_main_v9 (F := Ideal) x1) e d).trans ?_
  refine congrArg (fun n => x0 (ix2 n d)) (Fin.ext ?_)
  show min (val_main_v9 (F := Ideal) x1 (ix2 e (0 : Fin 1))).toInt.toNat (100000 - 1)
    = min (EdgeScore.wrap (x1 (ix2 (0 : Fin 2) e))).toInt.toNat (100000 - 1)
  rw [start_source]

/-- The gathered target row of edge `e`. -/
theorem gathered_target (x0 : FVec Ideal S100000x128 .f32) (x1 : IVec S2x2000000 32) (e : Fin 2000000) (d : Fin 128) :
    val_main_v17 (F := Ideal) x0 x1 (ix2 e d) = x0 (ix2 (EdgeScore.node (x1 (ix2 (1 : Fin 2) e))) d) := by
  unfold val_main_v17
  refine (RowOps.rowGather_apply (N := 100000) (E := 2000000) (C := 128) (by decide)
    gather_S100000x128_S2000000x1_S2000000x128_1_0_n_n_0_1_1128_wf x0 (val_main_v16 (F := Ideal) x1) e d).trans ?_
  refine congrArg (fun n => x0 (ix2 n d)) (Fin.ext ?_)
  show min (val_main_v16 (F := Ideal) x1 (ix2 e (0 : Fin 1))).toInt.toNat (100000 - 1)
    = min (EdgeScore.wrap (x1 (ix2 (1 : Fin 2) e))).toInt.toNat (100000 - 1)
  rw [start_target]

/-! ## The two layers -/

/-- The hidden layer of edge `e` at unit `k`. -/
theorem hidden_apply (x0 : FVec Ideal S100000x128 .f32) (x1 : IVec S2x2000000 32) (x2 : FVec Ideal S128x128 .f32)
    (x3 : FVec Ideal S128 .f32) (e : Fin 2000000) (k : Fin 128) :
    val_main_v23 (F := Ideal) x0 x1 x2 x3 (ix2 e k)
      = max ((∑ d : Fin 128, EdgeScore.feat x0 x1 e d * x2 (ix2 d k)) + x3 (ix1 k)) 0 := by
  have hl : ∀ d : Fin 128, lidx_main_v19 (ix2 e k) d = ix2 e d := fun d =>
    funext fun a => Fin.ext (by match a with | ⟨0, _⟩ => rfl | ⟨1, _⟩ => rfl)
  have hr : ∀ d : Fin 128, ridx_main_v19 (ix2 e k) d = ix2 d k := fun d =>
    funext fun a => Fin.ext (by match a with | ⟨0, _⟩ => rfl | ⟨1, _⟩ => rfl)
  have hb : idx_main_v20 (idx_main_v21 (ix2 e k)) = ix1 k :=
    funext fun a => Fin.ext (by match a with | ⟨0, _⟩ => rfl)
  rw [val_main_v23_apply, val_main_v22_apply, val_main_v19_apply, val_main_v21_apply, val_main_v20_apply,
    val_main_call0_v0_apply, val_main_call0_cst_apply, hb]
  show max ((∑ d : Fin 128, val_main_v18 (F := Ideal) x0 x1 (lidx_main_v19 (ix2 e k) d) * x2 (ridx_main_v19 (ix2 e k) d)) + x3 (ix1 k))
      (Ideal.ofBits .f32 0x00000000#32) = _
  rw [Ideal.ofBits_zero_f32]
  refine congrArg (fun s => max (s + x3 (ix1 k)) 0) (Finset.sum_congr rfl fun d _ => ?_)
  rw [hl, hr, val_main_v18_apply, gathered_source, gathered_target]
  rfl

/-- THE REFERENCE'S RESULT is the score of every edge. -/
theorem result_eq (x0 : FVec Ideal S100000x128 .f32) (x1 : IVec S2x2000000 32) (x2 : FVec Ideal S128x128 .f32)
    (x3 : FVec Ideal S128 .f32) (x4 : FVec Ideal S128x1 .f32) (x5 : FVec Ideal S1 .f32) :
    val_main_v28 (F := Ideal) x0 x1 x2 x3 x4 x5 = EdgeScore.score x0 x1 x2 x3 x4 x5 := by
  funext i
  obtain ⟨e, rfl⟩ : ∃ e : Fin 2000000, i = ix1 e := ⟨i 0, eq_ix1 i⟩
  have he : e.val < 2000000 := e.isLt
  have hl : ∀ k : Fin 128, lidx_main_v24 (idx_main_v28 (ix1 e)) k = ix2 e k := fun k =>
    funext fun a => Fin.ext (by
      match a with
      | ⟨0, _⟩ => show e.val / 1 = e.val; omega
      | ⟨1, _⟩ => rfl)
  have hr : ∀ k : Fin 128, ridx_main_v24 (idx_main_v28 (ix1 e)) k = ix2 k (0 : Fin 1) := fun k =>
    funext fun a => Fin.ext (by match a with | ⟨0, _⟩ => rfl | ⟨1, _⟩ => rfl)
  have hb : idx_main_v25 (idx_main_v26 (idx_main_v28 (ix1 e))) = ix1 (0 : Fin 1) :=
    funext fun a => Fin.ext (by match a with | ⟨0, _⟩ => rfl)
  rw [val_main_v28_apply, val_main_v27_apply, val_main_v24_apply, val_main_v26_apply, val_main_v25_apply, hb]
  unfold EdgeScore.score EdgeScore.mlp
  refine congrArg (fun s : EReal => s + x5 (ix1 (0 : Fin 1))) (Finset.sum_congr rfl fun k _ => ?_)
  rw [hl, hr, hidden_apply]

end Cert.ReferenceIdeal.RefValue

end
-- ==== Proof.lean ====
/-
  The edge decoder kernel against its reference, over the extended reals.

  Both programs score each of 2000000 edges by a two-layer perceptron on the Hadamard product of the edge's two
  endpoint rows of a node table (`EdgeScore.score`). The reference does it with two gathers and two matrix products
  on the host. The kernel program pads the edges to 245 blocks of 8192, builds the padded feature array on the host,
  runs the perceptron block by block in a pipelined kernel — the first layer a matrix product into a zero accumulator,
  the second a lane reduction of products with the broadcast weight column — and keeps the first 2000000 scores.
  On the extended reals a change of float format is the identity, the matrix product into zero and the lane reduction
  are the plain finite sums the host's products are, and the padding rows are dropped again: index by index the two
  results are the same expression, with no use of the finiteness of the inputs.

  The frames of the two kernel programs are the generated ones; the reference's frame is its generated run with the
  result dropped; the idealization rewrote nothing, so its statement is trivial.
-/
import proofs.«179441_j62191126446520_2_alg».proof.Defs
import proofs.«179441_j62191126446520_2_alg».proof.Proof.Gen.Kernel
import proofs.«179441_j62191126446520_2_alg».proof.Proof.Gen.Kernel.Skeleton
import proofs.«179441_j62191126446520_2_alg».proof.Proof.Gen.Kernel.Launch
import proofs.«179441_j62191126446520_2_alg».proof.Proof.Gen.Kernel.Points
import proofs.«179441_j62191126446520_2_alg».proof.Proof.Gen.Kernel.Frame
import proofs.«179441_j62191126446520_2_alg».proof.Proof.Gen.KernelIdeal
import proofs.«179441_j62191126446520_2_alg».proof.Proof.Gen.KernelIdeal.Skeleton
import proofs.«179441_j62191126446520_2_alg».proof.Proof.Gen.KernelIdeal.Launch
import proofs.«179441_j62191126446520_2_alg».proof.Proof.Gen.KernelIdeal.Points
import proofs.«179441_j62191126446520_2_alg».proof.Proof.Gen.KernelIdeal.Frame
import proofs.«179441_j62191126446520_2_alg».proof.Proof.Gen.ReferenceIdeal
import proofs.«179441_j62191126446520_2_alg».proof.Proof.Gen.ReferenceIdeal.Run
import proofs.«179441_j62191126446520_2_alg».proof.Proof.Gen.ReferenceIdeal.Read
import proofs.«179441_j62191126446520_2_alg».proof.Proof.Gen.Pre_finite_inputs
import proofs.«179441_j62191126446520_2_alg».proof.Proof.KernelRun
import proofs.«179441_j62191126446520_2_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the scores of the edges. -/
theorem algebraic : Cert.algebraic_KernelIdeal_ReferenceIdeal := by
  intro m ρ m' ρ' _ hagree
  refine ⟨fun c => EdgeScore.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KRun.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v28_eq (F := Ideal) _ _ _ _ _ _).trans
    (Cert.ReferenceIdeal.RefValue.result_eq _ _ _ _ _ _))).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
